-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part4 {F : FTy → Type} [FloatOps F] (main_arg14 : FVec F S1x2048 .f32) (main_v63 : IVec S_ 1) (main_v67 : IVec S_ 1) : IVec S_ 1 :=
  let main_v68 : IVec S_ 1 := andi main_v63 main_v67
  let main_v69 : FVec F S1x2048 .f32 := Host.absf main_arg14
  let main_cst_26 : FVec F S_ .f32 := constant S_ .f32 0x7F800000#32
  let main_v70 : FVec F S1x2048 .f32 := broadcastInDim S1x2048 ![] bcast_S_S1x2048 main_cst_26
  let main_v71 : IVec S1x2048 1 := cmpf .olt main_v69 main_v70
  let main_c_27 : IVec S_ 1 := constantI S_ 1 1#1
  let main_v72 : IVec S_ 1 := (fun x v => Host.reduce IntOp.andi x v reducesTo_S1x2048_S_d0_1 h_S_) main_v71 main_c_27
  let main_v73 : IVec S_ 1 := andi main_v68 main_v72
  main_v73

def fn_part3 {F : FTy → Type} [FloatOps F] (main_arg11 : FVec F S1x2048 .f32) (main_arg12 : FVec F S1x2048 .f32) (main_arg13 : FVec F S1x2048 .f32) (main_arg14 : FVec F S1x2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S1x2048 .f32 := Host.absf main_arg11
  let main_cst_20 : FVec F S_ .f32 := constant S_ .f32 0x7F800000#32
  let main_v55 : FVec F S1x2048 .f32 := broadcastInDim S1x2048 ![] bcast_S_S1x2048 main_cst_20
  let main_v56 : IVec S1x2048 1 := cmpf .olt main_v54 main_v55
  let main_c_21 : IVec S_ 1 := constantI S_ 1 1#1
  let main_v57 : IVec S_ 1 := (fun x v => Host.reduce IntOp.andi x v reducesTo_S1x2048_S_d0_1 h_S_) main_v56 main_c_21
  let main_v58 : IVec S_ 1 := andi main_v53 main_v57
  let main_v59 : FVec F S1x2048 .f32 := Host.absf main_arg12
  let main_cst_22 : FVec F S_ .f32 := constant S_ .f32 0x7F800000#32
  let main_v60 : FVec F S1x2048 .f32 := broadcastInDim S1x2048 ![] bcast_S_S1x2048 main_cst_22
  let main_v61 : IVec S1x2048 1 := cmpf .olt main_v59 main_v60
  let main_c_23 : IVec S_ 1 := constantI S_ 1 1#1
  let main_v62 : IVec S_ 1 := (fun x v => Host.reduce IntOp.andi x v reducesTo_S1x2048_S_d0_1 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S1024x2048 .f32) (main_arg5 : FVec F S1024x2048 .f32) (main_arg6 : FVec F S1024x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1024x1024 .f32) (main_arg1 : FVec F S1024x2048 .f32) (main_arg2 : FVec F S1024x2048 .f32) (main_arg3 : FVec F S1024x2048 .f32) (main_arg4 : FVec F S1024x2048 .f32) (main_arg5 : FVec F S1024x2048 .f32) (main_arg6 : FVec F S1024x2048 .f32) (main_arg7 : FVec F S2048x2048 .f32) (main_arg8 : FVec F S2048x2048 .f32) (main_arg9 : FVec F S2048x2048 .f32) (main_arg10 : FVec F S2048x2048 .f32) (main_arg11 : FVec F S1x2048 .f32) (main_arg12 : FVec F S1x2048 .f32) (main_arg13 : FVec F S1x2048 .f32) (main_arg14 : FVec F S1x2048 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S1024x2048 .f32 := Host.absf main_arg2
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S256x1024 : Shape := ⟨2, ![256, 1024]⟩
abbrev S256x2048 : Shape := ⟨2, ![256, 2048]⟩
abbrev S256x256 : Shape := ⟨2, ![256, 256]⟩
abbrev S1024x256 : Shape := ⟨2, ![1024, 256]⟩
abbrev S2048x256 : Shape := ⟨2, ![2048, 256]⟩
abbrev S1x256 : Shape := ⟨2, ![1, 256]⟩

abbrev nBuf : Space → Nat
  | .hbm => 17
  | .vmem => 34
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1024x2048, .f32⟩
  | .hbm, ⟨16, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S2048x256, .f32⟩
  | .local _ .vmem, ⟨15, _⟩ => ⟨S2048x256, .f32⟩
  | .local _ .vmem, ⟨16, _⟩ => ⟨S2048x256, .f32⟩
  | .local _ .vmem, ⟨17, _⟩ => ⟨S2048x256, .f32⟩
  | .local _ .vmem, ⟨18, _⟩ => ⟨S2048x256, .f32⟩
  | .local _ .vmem, ⟨19, _⟩ => ⟨S2048x256, .f32⟩
  | .local _ .vmem, ⟨20, _⟩ => ⟨S2048x256, .f32⟩
  | .local _ .vmem, ⟨21, _⟩ => ⟨S2048x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  broadcasts_S1x256_S256x256 : S1x256.Broadcasts S256x256
  dot_S256x1024_S1024x256_S256x256_1_0_0_1_n_n_wf : DotDims.WF S256x1024 S1024x256 S256x256 [1] [0] [0] [1] [] []
  dot_S256x2048_S2048x256_S256x256_1_0_0_1_n_n_wf : DotDims.WF S256x2048 S2048x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x1024.size a
  hwx0_0 : ∀ i : grid0.Coords, EltTy.bits .f32 = 32 ∨ (Rect.block (s := S1024x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S1024x2048.size a
  hwx0_1 : ∀ i : grid0.Coords, EltTy.bits .f32 = 32 ∨ (Rect.block (s := S1024x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S1024x2048.size a
  hwx0_2 : ∀ i : grid0.Coords, EltTy.bits .f32 = 32 ∨ (Rect.block (s := S1024x2048) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x2048.size a
  hwx0_3 : ∀ i : grid0.Coords, EltTy.bits .f32 = 32 ∨ (Rect.block (s := S1024x2048) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S1024x2048.size a
  hwx0_4 : ∀ i : grid0.Coords, EltTy.bits .f32 = 32 ∨ (Rect.block (s := S1024x2048) S1024x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x2048.size a
  hwx0_5 : ∀ i : grid0.Coords, EltTy.bits .f32 = 32 ∨ (Rect.block (s := S1024x2048) S1024x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x2048.size a
  hwx0_6 : ∀ i : grid0.Coords, EltTy.bits .f32 = 32 ∨ (Rect.block (s := S1024x2048) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S2048x2048.size a
  hwx0_7 : ∀ i : grid0.Coords, EltTy.bits .f32 = 32 ∨ (Rect.block (s := S2048x2048) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S2048x2048.size a
  hwx0_8 : ∀ i : grid0.Coords, EltTy.bits .f32 = 32 ∨ (Rect.block (s := S2048x2048) S2048x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S2048x2048.size a
  hwx0_9 : ∀ i : grid0.Coords, EltTy.bits .f32 = 32 ∨ (Rect.block (s := S2048x2048) S2048x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x256.size a ≤ S2048x2048.size a
  hwx0_10 : ∀ i : grid0.Coords, EltTy.bits .f32 = 32 ∨ (Rect.block (s := S2048x2048) S2048x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x2048.size a
  hwx0_14 : ∀ i : grid0.Coords, EltTy.bits .f32 = 32 ∨ (Rect.block (s := S1x2048) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S1024x2048.size a
  hwx0_15 : ∀ i : grid0.Coords, EltTy.bits .f32 = 32 ∨ (Rect.block (s := S1024x2048) S256x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S256x256.size a ≤ S1024x2048.size a
  hwx0_16 : ∀ i : grid0.Coords, EltTy.bits .f32 = 32 ∨ (Rect.block (s := S1024x2048) S256x256.size (cc0_transform_16 i) (hinb0_16 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x2048_S2048x256_S256x256_1_0_0_1_n_n : DotDims S256x2048 S2048x256 S256x256 where
  lhsContracting := [1]
  rhsContracting := [0]
  lhsNonContracting := [0]
  rhsNonContracting := [1]
  lhsBatch := []
  rhsBatch := []
  wf := dot_S256x2048_S2048x256_S256x256_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v0_0) S256x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v0_1) S256x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩

abbrev nBuf : Space → Nat
  | .hbm => 65
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S1024x2048, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S1024x2048, .f32⟩
  | .hbm, ⟨34, _⟩ => ⟨S1024x2048, .f32⟩
  | .hbm, ⟨35, _⟩ => ⟨S_, .f32⟩
  | .hbm, ⟨36, _⟩ => ⟨S1024x2048, .f32⟩
  | .hbm, ⟨37, _⟩ => ⟨S1024x2048, .f32⟩
  | .hbm, ⟨38, _⟩ => ⟨S_, .f32⟩
  | .hbm, ⟨39, _⟩ => ⟨S1024x2048, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S1024x2048, .f32⟩
  | .hbm, ⟨55, _⟩ => ⟨S1024x2048, .f32⟩
  | .hbm, ⟨56, _⟩ => ⟨S1024x2048, .f32⟩
  | .hbm, ⟨57, _⟩ => ⟨S1024x2048, .f32⟩
  | .hbm, ⟨58, _⟩ => ⟨S1024x2048, .f32⟩
  | .hbm, ⟨59, _⟩ => ⟨S1024x2048, .f32⟩
  | .hbm, ⟨60, _⟩ => ⟨S1024x2048, .f32⟩
  | .hbm, ⟨61, _⟩ => ⟨S1024x2048, .f32⟩
  | .hbm, ⟨62, _⟩ => ⟨S1024x2048, .f32⟩
  | .hbm, ⟨63, _⟩ => ⟨S1024x2048, .f32⟩
  | .hbm, ⟨64, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S1x2048_S1024x2048_0_1 : S1x2048.BroadcastsInDim S1024x2048 (![0, 1] : Fin 2 → Fin S1024x2048.rank)
  bcast_S_S1024x2048 : S_.BroadcastsInDim S1024x2048 (![] : Fin 0 → Fin S1024x2048.rank)
  dot_S1024x1024_S1024x2048_S1024x2048_1_0_0_1_n_n_wf : DotDims.WF S1024x1024 S1024x2048 S1024x2048 [1] [0] [0] [1] [] []
  dot_S1024x2048_S2048x2048_S1024x2048_1_0_0_1_n_n_wf : DotDims.WF S1024x2048 S2048x2048 S1024x2048 [1] [0] [0] [1] [] []

variable [Facts₀]

def dot_S1024x1024_S1024x2048_S1024x2048_1_0_0_1_n_n : DotDims S1024x1024 S1024x2048 S1024x2048 where
  lhsContracting := [1]
  rhsContracting := [0]
  lhsNonContracting := [0]
  rhsNonContracting := [1]
  lhsBatch := []
  rhsBatch := []
  wf := dot_S1024x1024_S1024x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf

class Facts : Prop extends Facts₀ where

variable [Facts]
-- ==== Proof.LstmSpec.lean ====
/-
  One step of an LSTM cell over the extended reals, entry by entry.

  For a batch of `R` rows with `n₁` input features and `n₂` hidden features, and `K` output columns, a gate's
  pre-activation at row `r` and column `q` is
      z (r, q) = (Σ_k x (r, k) · w (k, q)  +  Σ_k h (r, k) · u (k, q))  +  b (0, q),
  the new cell state is  σ(z_f) · c_old + σ(z_i) · tanh(z_c)  and the new hidden state  σ(z_o) · tanh(c_new),
  where σ(z) = 1 / (1 + e^(−z)) with the conventions of the extended reals at the infinities.

  An entry (r, q) depends on row `r` of `x` and of `h`, on column `q` of the weight matrices and of the biases, and on
  entry (r, q) of `c_old`, and on nothing else. So the same formulas evaluated on a tile's rows and columns give that
  tile of the whole result: `gate_congr`, `cellAt_congr`, `hiddenAt_congr`. Nothing here needs the entries to be finite:
  only the same sums and products are formed on both sides, in the same order.
-/
import Idealize.ShloMosaic.PureOps.Ideal
import Idealize.ShloMosaic.Lib.ValueIdx

noncomputable section

namespace Cert.Lstm

open Idealize.ShloMosaic Idealize.ShloMosaic.ValueIdx

/-- An `a × b` matrix of extended reals, indexed as a rank-2 array. -/
abbrev Mat (a b : Nat) : Type := (⟨2, ![a, b]⟩ : Shape).Idx → EReal

variable {R n₁ n₂ K : Nat}

/-- A gate's pre-activation at row `r`, column `q`: `(x·w + h·u) + b`, the bias a single row. -/
def gate (x : Mat R n₁) (h : Mat R n₂) (w : Mat n₁ K) (u : Mat n₂ K) (b : Mat 1 K) (r : Fin R) (q : Fin K) : EReal :=
  ((∑ k : Fin n₁, x (ix2 r k) * w (ix2 k q)) + ∑ k : Fin n₂, h (ix2 r k) * u (ix2 k q)) + b (ix2 (0 : Fin 1) q)

/-- The new cell state at `(r, q)`: forget gate times the old state plus input gate times the candidate. -/
def cellAt (x : Mat R n₁) (h : Mat R n₂) (c : Mat R K) (wf wi wc : Mat n₁ K) (uf ui uc : Mat n₂ K) (bf bi bc : Mat 1 K)
    (r : Fin R) (q : Fin K) : EReal :=
  Ideal.logistic (gate x h wf uf bf r q) * c (ix2 r q)
    + Ideal.logistic (gate x h wi ui bi r q) * Ideal.tanh (gate x h wc uc bc r q)

/-- The new hidden state at `(r, q)`: output gate times `tanh` of the new cell state. -/
def hiddenAt (x : Mat R n₁) (h : Mat R n₂) (c : Mat R K) (wf wi wo wc : Mat n₁ K) (uf ui uo uc : Mat n₂ K)
    (bf bi bo bc : Mat 1 K) (r : Fin R) (q : Fin K) : EReal :=
  Ideal.logistic (gate x h wo uo bo r q) * Ideal.tanh (cellAt x h c wf wi wc uf ui uc bf bi bc r q)

/-- The new cell state as a whole array. -/
def cellArr (x : Mat R n₁) (h : Mat R n₂) (c : Mat R K) (wf wi wc : Mat n₁ K) (uf ui uc : Mat n₂ K) (bf bi bc : Mat 1 K) :
    Mat R K := fun i => cellAt x h c wf wi wc uf ui uc bf bi bc (i 0) (i 1)

/-- The new hidden state as a whole array. -/
def hiddenArr (x : Mat R n₁) (h : Mat R n₂) (c : Mat R K) (wf wi wo wc : Mat n₁ K) (uf ui uo uc : Mat n₂ K)
    (bf bi bo bc : Mat 1 K) : Mat R K := fun i => hiddenAt x h c wf wi wo wc uf ui uo uc bf bi bo bc (i 0) (i 1)

variable {R' K' : Nat}

/-- A pre-activation only reads row `r` of `x`, `h` and column `q` of `w`, `u`, `b`: two sets of operands that agree
    there (a tile's `r'`, `q'` against the whole arrays' `r`, `q`) give the same value. -/
theorem gate_congr (x : Mat R n₁) (h : Mat R n₂) (w : Mat n₁ K) (u : Mat n₂ K) (b : Mat 1 K)
    (x' : Mat R' n₁) (h' : Mat R' n₂) (w' : Mat n₁ K') (u' : Mat n₂ K') (b' : Mat 1 K')
    (r : Fin R) (q : Fin K) (r' : Fin R') (q' : Fin K')
    (hx : ∀ k, x' (ix2 r' k) = x (ix2 r k)) (hh : ∀ k, h' (ix2 r' k) = h (ix2 r k))
    (hw : ∀ k, w' (ix2 k q') = w (ix2 k q)) (hu : ∀ k, u' (ix2 k q') = u (ix2 k q))
    (hb : b' (ix2 (0 : Fin 1) q') = b (ix2 (0 : Fin 1) q)) :
    gate x' h' w' u' b' r' q' = gate x h w u b r q := by
  unfold gate
  rw [hb]
  refine congrArg (· + b (ix2 (0 : Fin 1) q)) ?_
  refine congrArg₂ (· + ·) (Finset.sum_congr rfl fun k _ => ?_) (Finset.sum_congr rfl fun k _ => ?_)
  · rw [hx k, hw k]
  · rw [hh k, hu k]

/-- The new cell state at `(r, q)` likewise, reading also entry `(r, q)` of the old state. -/
theorem cellAt_congr (x : Mat R n₁) (h : Mat R n₂) (c : Mat R K) (wf wi wc : Mat n₁ K) (uf ui uc : Mat n₂ K) (bf bi bc : Mat 1 K)
    (x' : Mat R' n₁) (h' : Mat R' n₂) (c' : Mat R' K') (wf' wi' wc' : Mat n₁ K') (uf' ui' uc' : Mat n₂ K') (bf' bi' bc' : Mat 1 K')
    (r : Fin R) (q : Fin K) (r' : Fin R') (q' : Fin K')
    (hx : ∀ k, x' (ix2 r' k) = x (ix2 r k)) (hh : ∀ k, h' (ix2 r' k) = h (ix2 r k)) (hc : c' (ix2 r' q') = c (ix2 r q))
    (hwf : ∀ k, wf' (ix2 k q') = wf (ix2 k q)) (hwi : ∀ k, wi' (ix2 k q') = wi (ix2 k q)) (hwc : ∀ k, wc' (ix2 k q') = wc (ix2 k q))
    (huf : ∀ k, uf' (ix2 k q') = uf (ix2 k q)) (hui : ∀ k, ui' (ix2 k q') = ui (ix2 k q)) (huc : ∀ k, uc' (ix2 k q') = uc (ix2 k q))
    (hbf : bf' (ix2 (0 : Fin 1) q') = bf (ix2 (0 : Fin 1) q)) (hbi : bi' (ix2 (0 : Fin 1) q') = bi (ix2 (0 : Fin 1) q))
    (hbc : bc' (ix2 (0 : Fin 1) q') = bc (ix2 (0 : Fin 1) q)) :
    cellAt x' h' c' wf' wi' wc' uf' ui' uc' bf' bi' bc' r' q' = cellAt x h c wf wi wc uf ui uc bf bi bc r q := by
  unfold cellAt
  rw [gate_congr x h wf uf bf x' h' wf' uf' bf' r q r' q' hx hh hwf huf hbf,
    gate_congr x h wi ui bi x' h' wi' ui' bi' r q r' q' hx hh hwi hui hbi,
    gate_congr x h wc uc bc x' h' wc' uc' bc' r q r' q' hx hh hwc huc hbc, hc]

/-- And the new hidden state. -/
theorem hiddenAt_congr (x : Mat R n₁) (h : Mat R n₂) (c : Mat R K) (wf wi wo wc : Mat n₁ K) (uf ui uo uc : Mat n₂ K)
    (bf bi bo bc : Mat 1 K)
    (x' : Mat R' n₁) (h' : Mat R' n₂) (c' : Mat R' K') (wf' wi' wo' wc' : Mat n₁ K') (uf' ui' uo' uc' : Mat n₂ K')
    (bf' bi' bo' bc' : Mat 1 K')
    (r : Fin R) (q : Fin K) (r' : Fin R') (q' : Fin K')
    (hx : ∀ k, x' (ix2 r' k) = x (ix2 r k)) (hh : ∀ k, h' (ix2 r' k) = h (ix2 r k)) (hc : c' (ix2 r' q') = c (ix2 r q))
    (hwf : ∀ k, wf' (ix2 k q') = wf (ix2 k q)) (hwi : ∀ k, wi' (ix2 k q') = wi (ix2 k q)) (hwo : ∀ k, wo' (ix2 k q') = wo (ix2 k q))
    (hwc : ∀ k, wc' (ix2 k q') = wc (ix2 k q))
    (huf : ∀ k, uf' (ix2 k q') = uf (ix2 k q)) (hui : ∀ k, ui' (ix2 k q') = ui (ix2 k q)) (huo : ∀ k, uo' (ix2 k q') = uo (ix2 k q))
    (huc : ∀ k, uc' (ix2 k q') = uc (ix2 k q))
    (hbf : bf' (ix2 (0 : Fin 1) q') = bf (ix2 (0 : Fin 1) q)) (hbi : bi' (ix2 (0 : Fin 1) q') = bi (ix2 (0 : Fin 1) q))
    (hbo : bo' (ix2 (0 : Fin 1) q') = bo (ix2 (0 : Fin 1) q)) (hbc : bc' (ix2 (0 : Fin 1) q') = bc (ix2 (0 : Fin 1) q)) :
    hiddenAt x' h' c' wf' wi' wo' wc' uf' ui' uo' uc' bf' bi' bo' bc' r' q'
      = hiddenAt x h c wf wi wo wc uf ui uo uc bf bi bo bc r q := by
  unfold hiddenAt
  rw [gate_congr x h wo uo bo x' h' wo' uo' bo' r q r' q' hx hh hwo huo hbo,
    cellAt_congr x h c wf wi wc uf ui uc bf bi bc x' h' c' wf' wi' wc' uf' ui' uc' bf' bi' bc' r q r' q'
      hx hh hc hwf hwi hwc huf hui huc hbf hbi hbc]

end Cert.Lstm

end
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.KernelCell.lean ====
/-
  What the kernel body stores, entry by entry, at the ideal instance.

  The body loads a tile of 256 rows of `x` and of `h`, a 256 × 256 tile of the old cell state, and 256 columns of each
  weight matrix and bias. Each gate's pre-activation is two matrix products into zero accumulators, added, plus the bias
  row copied down the 256 rows; a change of float format is the identity on extended reals, so the operands of the products
  are the loaded tiles themselves. Read at row `p` and column `q`, the two stored values are `Lstm.cellAt` and
  `Lstm.hiddenAt` of the loaded tiles.
-/
import proofs.«145109_j41420664603057_2_alg».proof.Proof.Gen.KernelIdeal.Skeleton
import proofs.«145109_j41420664603057_2_alg».proof.Proof.LstmSpec
import proofs.«145109_j41420664603057_2_alg».proof.Proof.LibPlainMatmul
import Idealize.ShloMosaic.Lib.ValueLayout
import Idealize.ShloMosaic.PureOps.Ideal.Laws

noncomputable section

namespace Cert.KernelIdeal.Cell

open Cert.KernelIdeal Cert.KernelIdeal.Gen Idealize.ShloMosaic Idealize.ShloMosaic.ValueIdx Cert.Lstm

/-- A gate's pre-activation as the body computes it — `(x·w + h·u) + b` with both products into zero accumulators and the
    bias row broadcast over the rows — read at `(p, q)`. -/
theorem preact_apply (x : FVec Ideal S256x1024 .bf16) (h : FVec Ideal S256x2048 .bf16) (w : FVec Ideal S1024x256 .bf16)
    (u : FVec Ideal S2048x256 .bf16) (b : Vec Ideal S1x256 .f32) (p q : Fin 256) :
    addf (addf (matmul dot_S256x1024_S1024x256_S256x256_1_0_0_1_n_n none x w (constant (F := Ideal) S256x256 .f32 0x00000000#32))
        (matmul dot_S256x2048_S2048x256_S256x256_1_0_0_1_n_n none h u (constant (F := Ideal) S256x256 .f32 0x00000000#32)))
      (broadcastTo S256x256 b broadcasts_S1x256_S256x256) (ix2 p q)
      = gate x h w u b p q := by
  unfold gate
  refine congrArg₂ (· + ·) (congrArg₂ (· + ·) ?_ ?_) ?_
  · exact Cert.PointConv.plainMatmul_zero_apply (R := 256) (n := 1024) (k := 256)
      dot_S256x1024_S1024x256_S256x256_1_0_0_1_n_n_wf none x w p q
  · exact Cert.PointConv.plainMatmul_zero_apply (R := 256) (n := 2048) (k := 256)
      dot_S256x2048_S2048x256_S256x256_1_0_0_1_n_n_wf none h u p q
  · exact broadcastTo_1b_ab_apply b broadcasts_S1x256_S256x256 p q

/-- The value stored into the cell-state tile, at `(p, q)`: the forget and input gates and the candidate are pre-activations
    of the loaded tiles through the logistic function and `tanh`, combined with the old state's entry. -/
theorem cell_apply (x0 : Vec Ideal S256x1024 .f32) (x1 : Vec Ideal S256x2048 .f32) (x2 : Vec Ideal S256x256 .f32)
    (x3 x4 x6 : Vec Ideal S1024x256 .f32) (x7 x8 x10 : Vec Ideal S2048x256 .f32) (x11 x12 x14 : Vec Ideal S1x256 .f32)
    (p q : Fin 256) :
    k0_pay1 (k0_pay3 x0) (k0_pay4 x1) x2 (k0_pay5 x0 x1 x3 x7 x11) (k0_pay6 x0 x1 x4 x8 x12) x6 x10 x14 (ix2 p q)
      = cellAt x0 x1 x2 x3 x4 x6 x7 x8 x10 x11 x12 x14 p q := by
  have ef := preact_apply (truncf .bf16 x0 bitsLt_bf16_f32) (truncf .bf16 x1 bitsLt_bf16_f32)
    (truncf .bf16 x3 bitsLt_bf16_f32) (truncf .bf16 x7 bitsLt_bf16_f32) x11 p q
  have ei := preact_apply (truncf .bf16 x0 bitsLt_bf16_f32) (truncf .bf16 x1 bitsLt_bf16_f32)
    (truncf .bf16 x4 bitsLt_bf16_f32) (truncf .bf16 x8 bitsLt_bf16_f32) x12 p q
  have ec := preact_apply (truncf .bf16 x0 bitsLt_bf16_f32) (truncf .bf16 x1 bitsLt_bf16_f32)
    (truncf .bf16 x6 bitsLt_bf16_f32) (truncf .bf16 x10 bitsLt_bf16_f32) x14 p q
  unfold k0_pay1 k0_pay5 k0_pay6 k0_pay3 k0_pay4 cellAt
  exact congrArg₂ (· + ·) (congrArg (fun z => Ideal.logistic z * x2 (ix2 p q)) ef)
    (congrArg₂ (fun a b => Ideal.logistic a * Ideal.tanh b) ei ec)

/-- The value stored into the hidden-state tile, at `(p, q)`: the output gate times `tanh` of the new cell state. -/
theorem hidden_apply (x0 : Vec Ideal S256x1024 .f32) (x1 : Vec Ideal S256x2048 .f32) (x2 : Vec Ideal S256x256 .f32)
    (x3 x4 x5 x6 : Vec Ideal S1024x256 .f32) (x7 x8 x9 x10 : Vec Ideal S2048x256 .f32) (x11 x12 x13 x14 : Vec Ideal S1x256 .f32)
    (p q : Fin 256) :
    k0_pay2 (k0_pay3 x0) (k0_pay4 x1) x2 (k0_pay5 x0 x1 x3 x7 x11) (k0_pay6 x0 x1 x4 x8 x12) (k0_pay7 x5) (k0_pay8 x9)
        (constant (F := Ideal) S256x256 .f32 0x00000000#32) x13 x6 x10 x14 (ix2 p q)
      = hiddenAt x0 x1 x2 x3 x4 x5 x6 x7 x8 x9 x10 x11 x12 x13 x14 p q := by
  have eo := preact_apply (truncf .bf16 x0 bitsLt_bf16_f32) (truncf .bf16 x1 bitsLt_bf16_f32)
    (truncf .bf16 x5 bitsLt_bf16_f32) (truncf .bf16 x9 bitsLt_bf16_f32) x13 p q
  have ecell := cell_apply x0 x1 x2 x3 x4 x6 x7 x8 x10 x11 x12 x14 p q
  unfold k0_pay2 k0_pay7 k0_pay8 k0_pay3 k0_pay4 hiddenAt
  exact congrArg₂ (fun a b => Ideal.logistic a * Ideal.tanh b) eo ecell

end Cert.KernelIdeal.Cell

end
-- ==== Proof.KernelTiles.lean ====
/-
  Which entries of the argument arrays a grid point's tiles hold.

  The grid has 8 × 4 points; a point has a column-tile number (0 … 7) and a row-tile number (0 … 3), read here off the
  hidden-state output's index map: its tile at a point is rows `256·ρ … 256·ρ + 255` and columns `256·κ … 256·κ + 255`
  of the 1024 × 2048 result. At the same point the tiles of `x` and `h` are the same 256 rows and all columns, the tile of
  the old cell state the same rows and columns, the tile of each weight matrix all rows and the same 256 columns, and the
  tile of each bias its one row and the same columns. The relations between the index maps are decided over the 32 points;
  an entry of a tile sits, on each axis, at tile number × tile extent + its coordinate in the tile.
-/
import proofs.«145109_j41420664603057_2_alg».proof.Proof.Gen.KernelIdeal.Frame
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps, decided over the grid -/

/-- The two outputs move together, and their tile numbers stay in range. -/
theorem out_tiles : ∀ t : Fin cfg0.N,
    win0_16.index t (0 : Fin 2) = win0_15.index t (0 : Fin 2) ∧ win0_16.index t (1 : Fin 2) = win0_15.index t (1 : Fin 2)
    ∧ win0_15.index t (0 : Fin 2) < 4 ∧ win0_15.index t (1 : Fin 2) < 8 :=
  (by decide +kernel : ∀ t : Fin grid0.N, _)

/-- Every pair of tile numbers is some point's. -/
theorem out_onto : ∀ (q0 : Fin 4) (q1 : Fin 8), ∃ t : Fin cfg0.N, win0_15.index t = ![q0.val, q1.val] :=
  (by decide +kernel : ∀ (q0 : Fin 4) (q1 : Fin 8), ∃ t : Fin grid0.N, win0_15.index t = ![q0.val, q1.val])

theorem tile0 : ∀ t : Fin cfg0.N, win0_0.index t (0 : Fin 2) = win0_15.index t (0 : Fin 2) ∧ win0_0.index t (1 : Fin 2) = 0 :=
  (by decide +kernel : ∀ t : Fin grid0.N, _)
theorem tile1 : ∀ t : Fin cfg0.N, win0_1.index t (0 : Fin 2) = win0_15.index t (0 : Fin 2) ∧ win0_1.index t (1 : Fin 2) = 0 :=
  (by decide +kernel : ∀ t : Fin grid0.N, _)
theorem tile2 : ∀ t : Fin cfg0.N, win0_2.index t (0 : Fin 2) = win0_15.index t (0 : Fin 2)
    ∧ win0_2.index t (1 : Fin 2) = win0_15.index t (1 : Fin 2) :=
  (by decide +kernel : ∀ t : Fin grid0.N, _)
theorem tile3 : ∀ t : Fin cfg0.N, win0_3.index t (0 : Fin 2) = 0 ∧ win0_3.index t (1 : Fin 2) = win0_15.index t (1 : Fin 2) :=
  (by decide +kernel : ∀ t : Fin grid0.N, _)
theorem tile4 : ∀ t : Fin cfg0.N, win0_4.index t (0 : Fin 2) = 0 ∧ win0_4.index t (1 : Fin 2) = win0_15.index t (1 : Fin 2) :=
  (by decide +kernel : ∀ t : Fin grid0.N, _)
theorem tile5 : ∀ t : Fin cfg0.N, win0_5.index t (0 : Fin 2) = 0 ∧ win0_5.index t (1 : Fin 2) = win0_15.index t (1 : Fin 2) :=
  (by decide +kernel : ∀ t : Fin grid0.N, _)
theorem tile6 : ∀ t : Fin cfg0.N, win0_6.index t (0 : Fin 2) = 0 ∧ win0_6.index t (1 : Fin 2) = win0_15.index t (1 : Fin 2) :=
  (by decide +kernel : ∀ t : Fin grid0.N, _)
theorem tile7 : ∀ t : Fin cfg0.N, win0_7.index t (0 : Fin 2) = 0 ∧ win0_7.index t (1 : Fin 2) = win0_15.index t (1 : Fin 2) :=
  (by decide +kernel : ∀ t : Fin grid0.N, _)
theorem tile8 : ∀ t : Fin cfg0.N, win0_8.index t (0 : Fin 2) = 0 ∧ win0_8.index t (1 : Fin 2) = win0_15.index t (1 : Fin 2) :=
  (by decide +kernel : ∀ t : Fin grid0.N, _)
theorem tile9 : ∀ t : Fin cfg0.N, win0_9.index t (0 : Fin 2) = 0 ∧ win0_9.index t (1 : Fin 2) = win0_15.index t (1 : Fin 2) :=
  (by decide +kernel : ∀ t : Fin grid0.N, _)
theorem tile10 : ∀ t : Fin cfg0.N, win0_10.index t (0 : Fin 2) = 0 ∧ win0_10.index t (1 : Fin 2) = win0_15.index t (1 : Fin 2) :=
  (by decide +kernel : ∀ t : Fin grid0.N, _)
theorem tile11 : ∀ t : Fin cfg0.N, win0_11.index t (0 : Fin 2) = 0 ∧ win0_11.index t (1 : Fin 2) = win0_15.index t (1 : Fin 2) :=
  (by decide +kernel : ∀ t : Fin grid0.N, _)
theorem tile12 : ∀ t : Fin cfg0.N, win0_12.index t (0 : Fin 2) = 0 ∧ win0_12.index t (1 : Fin 2) = win0_15.index t (1 : Fin 2) :=
  (by decide +kernel : ∀ t : Fin grid0.N, _)
theorem tile13 : ∀ t : Fin cfg0.N, win0_13.index t (0 : Fin 2) = 0 ∧ win0_13.index t (1 : Fin 2) = win0_15.index t (1 : Fin 2) :=
  (by decide +kernel : ∀ t : Fin grid0.N, _)
theorem tile14 : ∀ t : Fin cfg0.N, win0_14.index t (0 : Fin 2) = 0 ∧ win0_14.index t (1 : Fin 2) = win0_15.index t (1 : Fin 2) :=
  (by decide +kernel : ∀ t : Fin grid0.N, _)

/-! ## A tile's entry in its array

  `r` is a row of the result in the point's row tile, `s` a column in its column tile. -/

/-- `x`: the point's 256 rows, every column. -/
theorem x_tile (c : Dev nD) (t : Fin cfg0.N) (p : Fin 256) (k : Fin 1024) (r : Fin 1024)
    (hr : r.val = win0_15.index t (0 : Fin 2) * 256 + p.val) :
    (iblk m c 0 t : Vec Ideal S256x1024 .f32) (ix2 p k) = (V m c main_arg0 : Vec Ideal S1024x1024 .f32) (ix2 r k) := by
  obtain ⟨e0, e1⟩ := tile0 t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 1024 + 1 * k.val = k.val; omega

/-- `h`: the point's 256 rows, every column. -/
theorem h_tile (c : Dev nD) (t : Fin cfg0.N) (p : Fin 256) (k : Fin 2048) (r : Fin 1024)
    (hr : r.val = win0_15.index t (0 : Fin 2) * 256 + p.val) :
    (iblk m c 1 t : Vec Ideal S256x2048 .f32) (ix2 p k) = (V m c main_arg1 : Vec Ideal S1024x2048 .f32) (ix2 r k) := by
  obtain ⟨e0, e1⟩ := tile1 t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * p.val = r.val; omega
  | ⟨1, _⟩ => show win0_1.index t (1 : Fin 2) * 2048 + 1 * k.val = k.val; omega

/-- The old cell state: the point's rows and columns. -/
theorem c_tile (c : Dev nD) (t : Fin cfg0.N) (p q : Fin 256) (r : Fin 1024) (s : Fin 2048)
    (hr : r.val = win0_15.index t (0 : Fin 2) * 256 + p.val) (hs : s.val = win0_15.index t (1 : Fin 2) * 256 + q.val) :
    (iblk m c 2 t : Vec Ideal S256x256 .f32) (ix2 p q) = (V m c main_arg2 : Vec Ideal S1024x2048 .f32) (ix2 r s) := by
  obtain ⟨e0, e1⟩ := tile2 t
  unfold iblk
  rw [View.read_apply]
  show V m c main_arg2 _ = V m c main_arg2 _
  refine congrArg (V m c main_arg2) (funext fun a => Fin.ext ?_)
  match a with
  | ⟨0, _⟩ => show win0_2.index t (0 : Fin 2) * 256 + 1 * p.val = r.val; omega
  | ⟨1, _⟩ => show win0_2.index t (1 : Fin 2) * 256 + 1 * q.val = s.val; omega

/-- The four input-side weight matrices: every row, the point's 256 columns. -/
theorem wf_tile (c : Dev nD) (t : Fin cfg0.N) (k : Fin 1024) (q : Fin 256) (s : Fin 2048)
    (hs : s.val = win0_15.index t (1 : Fin 2) * 256 + q.val) :
    (iblk m c 3 t : Vec Ideal S1024x256 .f32) (ix2 k q) = (V m c main_arg3 : Vec Ideal S1024x2048 .f32) (ix2 k s) := by
  obtain ⟨e0, e1⟩ := tile3 t
  unfold iblk
  rw [View.read_apply]
  show V m c main_arg3 _ = V m c main_arg3 _
  refine congrArg (V m c main_arg3) (funext fun a => Fin.ext ?_)
  match a with
  | ⟨0, _⟩ => show win0_3.index t (0 : Fin 2) * 1024 + 1 * k.val = k.val; omega
  | ⟨1, _⟩ => show win0_3.index t (1 : Fin 2) * 256 + 1 * q.val = s.val; omega

theorem wi_tile (c : Dev nD) (t : Fin cfg0.N) (k : Fin 1024) (q : Fin 256) (s : Fin 2048)
    (hs : s.val = win0_15.index t (1 : Fin 2) * 256 + q.val) :
    (iblk m c 4 t : Vec Ideal S1024x256 .f32) (ix2 k q) = (V m c main_arg4 : Vec Ideal S1024x2048 .f32) (ix2 k s) := by
  obtain ⟨e0, e1⟩ := tile4 t
  unfold iblk
  rw [View.read_apply]
  show V m c main_arg4 _ = V m c main_arg4 _
  refine congrArg (V m c main_arg4) (funext fun a => Fin.ext ?_)
  match a with
  | ⟨0, _⟩ => show win0_4.index t (0 : Fin 2) * 1024 + 1 * k.val = k.val; omega
  | ⟨1, _⟩ => show win0_4.index t (1 : Fin 2) * 256 + 1 * q.val = s.val; omega

theorem wo_tile (c : Dev nD) (t : Fin cfg0.N) (k : Fin 1024) (q : Fin 256) (s : Fin 2048)
    (hs : s.val = win0_15.index t (1 : Fin 2) * 256 + q.val) :
    (iblk m c 5 t : Vec Ideal S1024x256 .f32) (ix2 k q) = (V m c main_arg5 : Vec Ideal S1024x2048 .f32) (ix2 k s) := by
  obtain ⟨e0, e1⟩ := tile5 t
  unfold iblk
  rw [View.read_apply]
  show V m c main_arg5 _ = V m c main_arg5 _
  refine congrArg (V m c main_arg5) (funext fun a => Fin.ext ?_)
  match a with
  | ⟨0, _⟩ => show win0_5.index t (0 : Fin 2) * 1024 + 1 * k.val = k.val; omega
  | ⟨1, _⟩ => show win0_5.index t (1 : Fin 2) * 256 + 1 * q.val = s.val; omega

theorem wc_tile (c : Dev nD) (t : Fin cfg0.N) (k : Fin 1024) (q : Fin 256) (s : Fin 2048)
    (hs : s.val = win0_15.index t (1 : Fin 2) * 256 + q.val) :
    (iblk m c 6 t : Vec Ideal S1024x256 .f32) (ix2 k q) = (V m c main_arg6 : Vec Ideal S1024x2048 .f32) (ix2 k s) := by
  obtain ⟨e0, e1⟩ := tile6 t
  unfold iblk
  rw [View.read_apply]
  show V m c main_arg6 _ = V m c main_arg6 _
  refine congrArg (V m c main_arg6) (funext fun a => Fin.ext ?_)
  match a with
  | ⟨0, _⟩ => show win0_6.index t (0 : Fin 2) * 1024 + 1 * k.val = k.val; omega
  | ⟨1, _⟩ => show win0_6.index t (1 : Fin 2) * 256 + 1 * q.val = s.val; omega

/-- The four hidden-side weight matrices: every row, the point's 256 columns. -/
theorem uf_tile (c : Dev nD) (t : Fin cfg0.N) (k : Fin 2048) (q : Fin 256) (s : Fin 2048)
    (hs : s.val = win0_15.index t (1 : Fin 2) * 256 + q.val) :
    (iblk m c 7 t : Vec Ideal S2048x256 .f32) (ix2 k q) = (V m c main_arg7 : Vec Ideal S2048x2048 .f32) (ix2 k s) := by
  obtain ⟨e0, e1⟩ := tile7 t
  unfold iblk
  rw [View.read_apply]
  show V m c main_arg7 _ = V m c main_arg7 _
  refine congrArg (V m c main_arg7) (funext fun a => Fin.ext ?_)
  match a with
  | ⟨0, _⟩ => show win0_7.index t (0 : Fin 2) * 2048 + 1 * k.val = k.val; omega
  | ⟨1, _⟩ => show win0_7.index t (1 : Fin 2) * 256 + 1 * q.val = s.val; omega

theorem ui_tile (c : Dev nD) (t : Fin cfg0.N) (k : Fin 2048) (q : Fin 256) (s : Fin 2048)
    (hs : s.val = win0_15.index t (1 : Fin 2) * 256 + q.val) :
    (iblk m c 8 t : Vec Ideal S2048x256 .f32) (ix2 k q) = (V m c main_arg8 : Vec Ideal S2048x2048 .f32) (ix2 k s) := by
  obtain ⟨e0, e1⟩ := tile8 t
  unfold iblk
  rw [View.read_apply]
  show V m c main_arg8 _ = V m c main_arg8 _
  refine congrArg (V m c main_arg8) (funext fun a => Fin.ext ?_)
  match a with
  | ⟨0, _⟩ => show win0_8.index t (0 : Fin 2) * 2048 + 1 * k.val = k.val; omega
  | ⟨1, _⟩ => show win0_8.index t (1 : Fin 2) * 256 + 1 * q.val = s.val; omega

theorem uo_tile (c : Dev nD) (t : Fin cfg0.N) (k : Fin 2048) (q : Fin 256) (s : Fin 2048)
    (hs : s.val = win0_15.index t (1 : Fin 2) * 256 + q.val) :
    (iblk m c 9 t : Vec Ideal S2048x256 .f32) (ix2 k q) = (V m c main_arg9 : Vec Ideal S2048x2048 .f32) (ix2 k s) := by
  obtain ⟨e0, e1⟩ := tile9 t
  unfold iblk
  rw [View.read_apply]
  show V m c main_arg9 _ = V m c main_arg9 _
  refine congrArg (V m c main_arg9) (funext fun a => Fin.ext ?_)
  match a with
  | ⟨0, _⟩ => show win0_9.index t (0 : Fin 2) * 2048 + 1 * k.val = k.val; omega
  | ⟨1, _⟩ => show win0_9.index t (1 : Fin 2) * 256 + 1 * q.val = s.val; omega

theorem uc_tile (c : Dev nD) (t : Fin cfg0.N) (k : Fin 2048) (q : Fin 256) (s : Fin 2048)
    (hs : s.val = win0_15.index t (1 : Fin 2) * 256 + q.val) :
    (iblk m c 10 t : Vec Ideal S2048x256 .f32) (ix2 k q) = (V m c main_arg10 : Vec Ideal S2048x2048 .f32) (ix2 k s) := by
  obtain ⟨e0, e1⟩ := tile10 t
  unfold iblk
  rw [View.read_apply]
  show V m c main_arg10 _ = V m c main_arg10 _
  refine congrArg (V m c main_arg10) (funext fun a => Fin.ext ?_)
  match a with
  | ⟨0, _⟩ => show win0_10.index t (0 : Fin 2) * 2048 + 1 * k.val = k.val; omega
  | ⟨1, _⟩ => show win0_10.index t (1 : Fin 2) * 256 + 1 * q.val = s.val; omega

/-- The four biases: their one row, the point's 256 columns. -/
theorem bf_tile (c : Dev nD) (t : Fin cfg0.N) (q : Fin 256) (s : Fin 2048)
    (hs : s.val = win0_15.index t (1 : Fin 2) * 256 + q.val) :
    (iblk m c 11 t : Vec Ideal S1x256 .f32) (ix2 (0 : Fin 1) q) = (V m c main_arg11 : Vec Ideal S1x2048 .f32) (ix2 (0 : Fin 1) s) := by
  obtain ⟨e0, e1⟩ := tile11 t
  unfold iblk
  rw [View.read_apply]
  show V m c main_arg11 _ = V m c main_arg11 _
  refine congrArg (V m c main_arg11) (funext fun a => Fin.ext ?_)
  match a with
  | ⟨0, _⟩ => show win0_11.index t (0 : Fin 2) * 1 + 1 * (0 : Fin 1).val = (0 : Fin 1).val; omega
  | ⟨1, _⟩ => show win0_11.index t (1 : Fin 2) * 256 + 1 * q.val = s.val; omega

theorem bi_tile (c : Dev nD) (t : Fin cfg0.N) (q : Fin 256) (s : Fin 2048)
    (hs : s.val = win0_15.index t (1 : Fin 2) * 256 + q.val) :
    (iblk m c 12 t : Vec Ideal S1x256 .f32) (ix2 (0 : Fin 1) q) = (V m c main_arg12 : Vec Ideal S1x2048 .f32) (ix2 (0 : Fin 1) s) := by
  obtain ⟨e0, e1⟩ := tile12 t
  unfold iblk
  rw [View.read_apply]
  show V m c main_arg12 _ = V m c main_arg12 _
  refine congrArg (V m c main_arg12) (funext fun a => Fin.ext ?_)
  match a with
  | ⟨0, _⟩ => show win0_12.index t (0 : Fin 2) * 1 + 1 * (0 : Fin 1).val = (0 : Fin 1).val; omega
  | ⟨1, _⟩ => show win0_12.index t (1 : Fin 2) * 256 + 1 * q.val = s.val; omega

theorem bo_tile (c : Dev nD) (t : Fin cfg0.N) (q : Fin 256) (s : Fin 2048)
    (hs : s.val = win0_15.index t (1 : Fin 2) * 256 + q.val) :
    (iblk m c 13 t : Vec Ideal S1x256 .f32) (ix2 (0 : Fin 1) q) = (V m c main_arg13 : Vec Ideal S1x2048 .f32) (ix2 (0 : Fin 1) s) := by
  obtain ⟨e0, e1⟩ := tile13 t
  unfold iblk
  rw [View.read_apply]
  show V m c main_arg13 _ = V m c main_arg13 _
  refine congrArg (V m c main_arg13) (funext fun a => Fin.ext ?_)
  match a with
  | ⟨0, _⟩ => show win0_13.index t (0 : Fin 2) * 1 + 1 * (0 : Fin 1).val = (0 : Fin 1).val; omega
  | ⟨1, _⟩ => show win0_13.index t (1 : Fin 2) * 256 + 1 * q.val = s.val; omega

theorem bc_tile (c : Dev nD) (t : Fin cfg0.N) (q : Fin 256) (s : Fin 2048)
    (hs : s.val = win0_15.index t (1 : Fin 2) * 256 + q.val) :
    (iblk m c 14 t : Vec Ideal S1x256 .f32) (ix2 (0 : Fin 1) q) = (V m c main_arg14 : Vec Ideal S1x2048 .f32) (ix2 (0 : Fin 1) s) := by
  obtain ⟨e0, e1⟩ := tile14 t
  unfold iblk
  rw [View.read_apply]
  show V m c main_arg14 _ = V m c main_arg14 _
  refine congrArg (V m c main_arg14) (funext fun a => Fin.ext ?_)
  match a with
  | ⟨0, _⟩ => show win0_14.index t (0 : Fin 2) * 1 + 1 * (0 : Fin 1).val = (0 : Fin 1).val; omega
  | ⟨1, _⟩ => show win0_14.index t (1 : Fin 2) * 256 + 1 * q.val = s.val; omega

end Cert.KernelIdeal.Tiles

end
-- ==== Proof.KernelWhole.lean ====
/-
  The kernel's two result arrays after the run, as whole-array functions of the argument arrays.

  At a grid point the body writes into each output's tile the new hidden state and the new cell state of the tiles it loaded
  (`Cell.hidden_apply`, `Cell.cell_apply`); those tiles are the point's rows of `x`, `h`, its rows and columns of the old cell
  state and its columns of the weights and biases (`Tiles`), and an entry of the cell reads nothing else (`Lstm.cellAt_congr`,
  `Lstm.hiddenAt_congr`): so what a point writes back is its tile of the whole-array result. The 32 tiles cover the
  1024 × 2048 array — row `r`, column `s` lies in the tile numbered `(r / 256, s / 256)` — so each result array ends holding
  the whole-array function.
-/
import proofs.«145109_j41420664603057_2_alg».proof.Proof.Gen.KernelIdeal.Value
import proofs.«145109_j41420664603057_2_alg».proof.Proof.KernelCell
import proofs.«145109_j41420664603057_2_alg».proof.Proof.KernelTiles

noncomputable section

namespace Cert.KernelIdeal.Whole

open Cert.KernelIdeal Cert.KernelIdeal.Gen Idealize.ShloMosaic Idealize.ShloMosaic.TcCoe Idealize.SL.Sem
open Idealize.ShloMosaic.ValueIdx Cert.Lstm Cert.KernelIdeal.Tiles
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The new cell state of the argument arrays as the kernel is launched on them. -/
abbrev cellOf (c : Dev nD) : S1024x2048.Idx → EReal :=
  cellArr (V m c main_arg0) (V m c main_arg1) (V m c main_arg2) (V m c main_arg3) (V m c main_arg4) (V m c main_arg6)
    (V m c main_arg7) (V m c main_arg8) (V m c main_arg10) (V m c main_arg11) (V m c main_arg12) (V m c main_arg14)

/-- The new hidden state of the argument arrays as the kernel is launched on them. -/
abbrev hiddenOf (c : Dev nD) : S1024x2048.Idx → EReal :=
  hiddenArr (V m c main_arg0) (V m c main_arg1) (V m c main_arg2) (V m c main_arg3) (V m c main_arg4) (V m c main_arg5)
    (V m c main_arg6) (V m c main_arg7) (V m c main_arg8) (V m c main_arg9) (V m c main_arg10) (V m c main_arg11)
    (V m c main_arg12) (V m c main_arg13) (V m c main_arg14)

/-! ## What a point writes back -/

/-- Point `t` writes back, into the cell-state output, its tile of `cellOf`. -/
theorem flushed_cell (c : Dev nD) (t : Fin cfg0.N) :
    (dats m 0 c).flushed 16 t = ((cfg0.win 16).blk t).view.read (Elt Ideal) (cellOf m c) := by
  rw [Value.flushed16]
  unfold out0_16
  rw [View.canon_unit_zero origin]
  simp only [View.ld_unit_zero (S := S256x1024) origin, View.ld_unit_zero (S := S256x2048) origin,
    View.ld_unit_zero (S := S256x256) origin, View.ld_unit_zero (S := S1024x256) origin,
    View.ld_unit_zero (S := S2048x256) origin, View.ld_unit_zero (S := S1x256) origin]
  funext j
  obtain ⟨p, q, rfl⟩ : ∃ (p q : Fin 256), j = ix2 p q := ⟨j 0, j 1, eq_ix2 j⟩
  obtain ⟨o0, o1, b0, b1⟩ := out_tiles t
  have hrow : win0_15.index t (0 : Fin 2) * 256 + p.val < 1024 := by omega
  have hcol : win0_15.index t (1 : Fin 2) * 256 + q.val < 2048 := by omega
  have hemb : ((cfg0.win 16).blk t).view.emb (ix2 p q) = ix2 (⟨_, hrow⟩ : Fin 1024) (⟨_, hcol⟩ : Fin 2048) :=
    funext fun a => Fin.ext (by
      match a with
      | ⟨0, _⟩ => show win0_16.index t (0 : Fin 2) * 256 + 1 * p.val = win0_15.index t (0 : Fin 2) * 256 + p.val; omega
      | ⟨1, _⟩ => show win0_16.index t (1 : Fin 2) * 256 + 1 * q.val = win0_15.index t (1 : Fin 2) * 256 + q.val; omega)
  refine (Cell.cell_apply (iblk m c 0 t) (iblk m c 1 t) (iblk m c 2 t) (iblk m c 3 t) (iblk m c 4 t) (iblk m c 6 t)
    (iblk m c 7 t) (iblk m c 8 t) (iblk m c 10 t) (iblk m c 11 t) (iblk m c 12 t) (iblk m c 14 t) p q).trans ?_
  refine Eq.trans ?_ (congrArg (cellOf m c) hemb).symm
  exact cellAt_congr (V m c main_arg0) (V m c main_arg1) (V m c main_arg2) (V m c main_arg3) (V m c main_arg4)
    (V m c main_arg6) (V m c main_arg7) (V m c main_arg8) (V m c main_arg10) (V m c main_arg11) (V m c main_arg12)
    (V m c main_arg14)
    (iblk m c 0 t) (iblk m c 1 t) (iblk m c 2 t) (iblk m c 3 t) (iblk m c 4 t) (iblk m c 6 t)
    (iblk m c 7 t) (iblk m c 8 t) (iblk m c 10 t) (iblk m c 11 t) (iblk m c 12 t) (iblk m c 14 t)
    ⟨_, hrow⟩ ⟨_, hcol⟩ p q
    (fun k => x_tile m c t p k _ rfl) (fun k => h_tile m c t p k _ rfl) (c_tile m c t p q _ _ rfl rfl)
    (fun k => wf_tile m c t k q _ rfl) (fun k => wi_tile m c t k q _ rfl) (fun k => wc_tile m c t k q _ rfl)
    (fun k => uf_tile m c t k q _ rfl) (fun k => ui_tile m c t k q _ rfl) (fun k => uc_tile m c t k q _ rfl)
    (bf_tile m c t q _ rfl) (bi_tile m c t q _ rfl) (bc_tile m c t q _ rfl)

/-- Point `t` writes back, into the hidden-state output, its tile of `hiddenOf`. -/
theorem flushed_hidden (c : Dev nD) (t : Fin cfg0.N) :
    (dats m 0 c).flushed 15 t = ((cfg0.win 15).blk t).view.read (Elt Ideal) (hiddenOf m c) := by
  rw [Value.flushed15]
  unfold out0_15
  rw [View.canon_unit_zero origin]
  simp only [View.ld_unit_zero (S := S256x1024) origin, View.ld_unit_zero (S := S256x2048) origin,
    View.ld_unit_zero (S := S256x256) origin, View.ld_unit_zero (S := S1024x256) origin,
    View.ld_unit_zero (S := S2048x256) origin, View.ld_unit_zero (S := S1x256) origin]
  funext j
  obtain ⟨p, q, rfl⟩ : ∃ (p q : Fin 256), j = ix2 p q := ⟨j 0, j 1, eq_ix2 j⟩
  obtain ⟨o0, o1, b0, b1⟩ := out_tiles t
  have hrow : win0_15.index t (0 : Fin 2) * 256 + p.val < 1024 := by omega
  have hcol : win0_15.index t (1 : Fin 2) * 256 + q.val < 2048 := by omega
  have hemb : ((cfg0.win 15).blk t).view.emb (ix2 p q) = ix2 (⟨_, hrow⟩ : Fin 1024) (⟨_, hcol⟩ : Fin 2048) :=
    funext fun a => Fin.ext (by
      match a with
      | ⟨0, _⟩ => show win0_15.index t (0 : Fin 2) * 256 + 1 * p.val = win0_15.index t (0 : Fin 2) * 256 + p.val; omega
      | ⟨1, _⟩ => show win0_15.index t (1 : Fin 2) * 256 + 1 * q.val = win0_15.index t (1 : Fin 2) * 256 + q.val; omega)
  refine (Cell.hidden_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) p q).trans ?_
  refine Eq.trans ?_ (congrArg (hiddenOf m c) hemb).symm
  exact hiddenAt_congr (V m c main_arg0) (V m c main_arg1) (V m c main_arg2) (V m c main_arg3) (V m c main_arg4)
    (V m c main_arg5) (V m c main_arg6) (V m c main_arg7) (V m c main_arg8) (V m c main_arg9) (V m c main_arg10)
    (V m c main_arg11) (V m c main_arg12) (V m c main_arg13) (V m c main_arg14)
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t)
    ⟨_, hrow⟩ ⟨_, hcol⟩ p q
    (fun k => x_tile m c t p k _ rfl) (fun k => h_tile m c t p k _ rfl) (c_tile m c t p q _ _ rfl rfl)
    (fun k => wf_tile m c t k q _ rfl) (fun k => wi_tile m c t k q _ rfl) (fun k => wo_tile m c t k q _ rfl)
    (fun k => wc_tile m c t k q _ rfl)
    (fun k => uf_tile m c t k q _ rfl) (fun k => ui_tile m c t k q _ rfl) (fun k => uo_tile m c t k q _ rfl)
    (fun k => uc_tile m c t k q _ rfl)
    (bf_tile m c t q _ rfl) (bi_tile m c t q _ rfl) (bo_tile m c t q _ rfl) (bc_tile m c t q _ rfl)

/-! ## The tiles cover the array -/

/-- An index is in point `t`'s hidden-state tile iff each coordinate is in the tile's range on its axis. -/
theorem mem_tile15 (t : Fin cfg0.N) (i : S1024x2048.Idx) :
    i ∈ ((cfg0.win 15).blk t).view.set ↔ ∀ a : Fin 2, win0_15.index t a * S256x256.size a ≤ (i a).val
      ∧ (i a).val < win0_15.index t a * S256x256.size a + S256x256.size a := by
  show i ∈ ((View.whole main_v0_0).slice (win0_15.rect t)).set ↔ _
  rw [View.set_slice_whole, Rect.mem_set_unit]
  exact Iff.rfl

/-- The same for the cell-state tile. -/
theorem mem_tile16 (t : Fin cfg0.N) (i : S1024x2048.Idx) :
    i ∈ ((cfg0.win 16).blk t).view.set ↔ ∀ a : Fin 2, win0_16.index t a * S256x256.size a ≤ (i a).val
      ∧ (i a).val < win0_16.index t a * S256x256.size a + S256x256.size a := by
  show i ∈ ((View.whole main_v0_1).slice (win0_16.rect t)).set ↔ _
  rw [View.set_slice_whole, Rect.mem_set_unit]
  exact Iff.rfl

/-- Row `r`, column `s` lies in the tile numbered `(r / 256, s / 256)`, which some point writes back. -/
theorem cover15 (i : S1024x2048.Idx) :
    ∃ t : Fin cfg0.N, (cfg0.win 15).flush t = true ∧ i ∈ ((cfg0.win 15).blk t).view.set := by
  have hi0 : (i 0).val < 1024 := (i 0).isLt
  have hi1 : (i 1).val < 2048 := (i 1).isLt
  obtain ⟨t, ht⟩ := out_onto ⟨(i 0).val / 256, by omega⟩ ⟨(i 1).val / 256, by omega⟩
  have q0 : win0_15.index t (0 : Fin 2) = (i 0).val / 256 := congrFun ht 0
  have q1 : win0_15.index t (1 : Fin 2) = (i 1).val / 256 := congrFun ht 1
  refine ⟨t, flush0_15 t, ?_⟩
  rw [mem_tile15]
  intro a
  match a with
  | ⟨0, _⟩ =>
    show win0_15.index t (0 : Fin 2) * 256 ≤ (i 0).val ∧ (i 0).val < win0_15.index t (0 : Fin 2) * 256 + 256
    omega
  | ⟨1, _⟩ =>
    show win0_15.index t (1 : Fin 2) * 256 ≤ (i 1).val ∧ (i 1).val < win0_15.index t (1 : Fin 2) * 256 + 256
    omega

theorem cover16 (i : S1024x2048.Idx) :
    ∃ t : Fin cfg0.N, (cfg0.win 16).flush t = true ∧ i ∈ ((cfg0.win 16).blk t).view.set := by
  have hi0 : (i 0).val < 1024 := (i 0).isLt
  have hi1 : (i 1).val < 2048 := (i 1).isLt
  obtain ⟨t, ht⟩ := out_onto ⟨(i 0).val / 256, by omega⟩ ⟨(i 1).val / 256, by omega⟩
  obtain ⟨o0, o1, -, -⟩ := out_tiles t
  have q0 : win0_15.index t (0 : Fin 2) = (i 0).val / 256 := congrFun ht 0
  have q1 : win0_15.index t (1 : Fin 2) = (i 1).val / 256 := congrFun ht 1
  refine ⟨t, flush0_16 t, ?_⟩
  rw [mem_tile16]
  intro a
  match a with
  | ⟨0, _⟩ =>
    show win0_16.index t (0 : Fin 2) * 256 ≤ (i 0).val ∧ (i 0).val < win0_16.index t (0 : Fin 2) * 256 + 256
    omega
  | ⟨1, _⟩ =>
    show win0_16.index t (1 : Fin 2) * 256 ≤ (i 1).val ∧ (i 1).val < win0_16.index t (1 : Fin 2) * 256 + 256
    omega

/-! ## The arrays after the run -/

theorem final_hidden (c : Dev nD) : (dats m 0 c).arrAt 15 cfg0.N = hiddenOf m c :=
  (dats m 0 c).arrAt_eq_of_cover 15 (hiddenOf m c) (fun t _ => flushed_hidden m c t) cover15

theorem final_cell (c : Dev nD) : (dats m 0 c).arrAt 16 cfg0.N = cellOf m c :=
  (dats m 0 c).arrAt_eq_of_cover 16 (cellOf m c) (fun t _ => flushed_cell m c t) cover16

/-- The kernel's run: the first result array ends at the new hidden state, the second at the new cell state, of the
    argument arrays, which are left as they were. -/
theorem run : θ_run defs (onTc (τ := τ) (main (F := Ideal))) ⟨m, fun _ => 0, ρ⟩ fun r => ∀ c : Dev nD,
      r.2.mem ((c : Thread nD τ).loc main_v0_0) = hiddenOf m c
      ∧ r.2.mem ((c : Thread nD τ).loc main_v0_1) = cellOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hidden m c), (h c).2.1.trans (final_cell m c), (h c).2.2⟩)
    (Value.run_blocks m ρ)

end Cert.KernelIdeal.Whole

end
-- ==== Proof.RefCell.lean ====
/-
  What the reference computes, entry by entry, at the ideal instance.

  The reference forms each gate's pre-activation as two whole matrix products, added, plus the bias row copied down the
  1024 rows; it spells the logistic function out as `1 / (1 + e^(−z))` with the host's negation, exponential, sum and
  quotient, which on the extended reals is the logistic function by its definition; `tanh` is the host's. Read at an
  index `i`, its two results are `Lstm.cellAt` and `Lstm.hiddenAt` of the argument arrays at row `i 0`, column `i 1`.
-/
import proofs.«145109_j41420664603057_2_alg».proof.Proof.Gen.ReferenceIdeal.Read
import proofs.«145109_j41420664603057_2_alg».proof.Proof.LstmSpec
import Idealize.ShloMosaic.Lib.IdealHost

noncomputable section

namespace Cert.ReferenceIdeal.Cell

open Cert.ReferenceIdeal Cert.ReferenceIdeal.Gen Cert.ReferenceIdeal.Read Idealize.ShloMosaic Idealize.ShloMosaic.ValueIdx Cert.Lstm

/-! ## A gate's pre-activation -/

/-- The forget gate's pre-activation stage, for any operands of its shapes, at `i`: the contracted index of each product
    runs over the shared axis, the bias is read in its one row. -/
theorem gate_v4 (x : FVec Ideal S1024x1024 .f32) (h w : FVec Ideal S1024x2048 .f32) (u : FVec Ideal S2048x2048 .f32)
    (b : FVec Ideal S1x2048 .f32) (i : S1024x2048.Idx) :
    val_main_v4 (F := Ideal) x h w u b i = gate x h w u b (i 0) (i 1) := by
  have el0 : ∀ k, lidx_main_v0 i k = ix2 (i 0) k := fun k => funext fun a => by
    match a with
    | ⟨0, _⟩ => rfl
    | ⟨1, _⟩ => rfl
  have er0 : ∀ k, ridx_main_v0 i k = ix2 k (i 1) := fun k => funext fun a => by
    match a with
    | ⟨0, _⟩ => rfl
    | ⟨1, _⟩ => rfl
  have el1 : ∀ k, lidx_main_v1 i k = ix2 (i 0) k := fun k => funext fun a => by
    match a with
    | ⟨0, _⟩ => rfl
    | ⟨1, _⟩ => rfl
  have er1 : ∀ k, ridx_main_v1 i k = ix2 k (i 1) := fun k => funext fun a => by
    match a with
    | ⟨0, _⟩ => rfl
    | ⟨1, _⟩ => rfl
  have eb : idx_main_v3 i = ix2 (0 : Fin 1) (i 1) := funext fun a => by
    match a with
    | ⟨0, _⟩ => rfl
    | ⟨1, _⟩ => rfl
  rw [val_main_v4_apply, val_main_v2_apply, val_main_v0_apply, val_main_v1_apply, val_main_v3_apply]
  simp only [el0, er0, el1, er1, eb]
  rfl

/-- The input gate's, the output gate's and the candidate's stages are the same operations on other operands. -/
theorem gate_v15 (x : FVec Ideal S1024x1024 .f32) (h w : FVec Ideal S1024x2048 .f32) (u : FVec Ideal S2048x2048 .f32)
    (b : FVec Ideal S1x2048 .f32) (i : S1024x2048.Idx) :
    val_main_v15 (F := Ideal) x h w u b i = gate x h w u b (i 0) (i 1) := gate_v4 x h w u b i

theorem gate_v26 (x : FVec Ideal S1024x1024 .f32) (h w : FVec Ideal S1024x2048 .f32) (u : FVec Ideal S2048x2048 .f32)
    (b : FVec Ideal S1x2048 .f32) (i : S1024x2048.Idx) :
    val_main_v26 (F := Ideal) x h w u b i = gate x h w u b (i 0) (i 1) := gate_v4 x h w u b i

theorem gate_v37 (x : FVec Ideal S1024x1024 .f32) (h w : FVec Ideal S1024x2048 .f32) (u : FVec Ideal S2048x2048 .f32)
    (b : FVec Ideal S1x2048 .f32) (i : S1024x2048.Idx) :
    val_main_v37 (F := Ideal) x h w u b i = gate x h w u b (i 0) (i 1) := gate_v4 x h w u b i

/-! ## The logistic function, spelt out -/

/-- The constant one, copied to every entry, read at an entry. -/
theorem one_apply (i : S1024x2048.Idx) : val_main_v7 (F := Ideal) i = 1 := by
  rw [val_main_v7_apply, val_main_cst_apply]
  exact Ideal.ofBits_one_f32

/-- `1 / (1 + e^(−z))` in the host's operations is the logistic function of `z`: that is its definition on the
    extended reals. -/
theorem logistic_v10 (x : FVec Ideal S1024x1024 .f32) (h w : FVec Ideal S1024x2048 .f32) (u : FVec Ideal S2048x2048 .f32)
    (b : FVec Ideal S1x2048 .f32) (i : S1024x2048.Idx) :
    val_main_v10 (F := Ideal) x h w u b i = Ideal.logistic (val_main_v4 (F := Ideal) x h w u b i) := by
  show Ideal.div (val_main_v7 (F := Ideal) i) (val_main_v7 (F := Ideal) i + Ideal.exp (-(val_main_v4 (F := Ideal) x h w u b i))) = _
  rw [one_apply]
  rfl

theorem logistic_v21 (x : FVec Ideal S1024x1024 .f32) (h w : FVec Ideal S1024x2048 .f32) (u : FVec Ideal S2048x2048 .f32)
    (b : FVec Ideal S1x2048 .f32) (i : S1024x2048.Idx) :
    val_main_v21 (F := Ideal) x h w u b i = Ideal.logistic (val_main_v15 (F := Ideal) x h w u b i) :=
  logistic_v10 x h w u b i

theorem logistic_v32 (x : FVec Ideal S1024x1024 .f32) (h w : FVec Ideal S1024x2048 .f32) (u : FVec Ideal S2048x2048 .f32)
    (b : FVec Ideal S1x2048 .f32) (i : S1024x2048.Idx) :
    val_main_v32 (F := Ideal) x h w u b i = Ideal.logistic (val_main_v26 (F := Ideal) x h w u b i) :=
  logistic_v10 x h w u b i

/-! ## The two results -/

/-- The reference's new cell state at `i`. -/
theorem cell_apply (x0 : FVec Ideal S1024x1024 .f32) (x1 x2 x3 x4 x6 : FVec Ideal S1024x2048 .f32)
    (x7 x8 x10 : FVec Ideal S2048x2048 .f32) (x11 x12 x14 : FVec Ideal S1x2048 .f32) (i : S1024x2048.Idx) :
    val_main_v41 (F := Ideal) x0 x1 x2 x3 x4 x6 x7 x8 x10 x11 x12 x14 i
      = cellAt x0 x1 x2 x3 x4 x6 x7 x8 x10 x11 x12 x14 (i 0) (i 1) := by
  obtain ⟨r, q, rfl⟩ : ∃ (r : Fin 1024) (q : Fin 2048), i = ix2 r q := ⟨i 0, i 1, eq_ix2 i⟩
  rw [val_main_v41_apply, val_main_v39_apply, val_main_v40_apply, val_main_v38_apply, logistic_v10, logistic_v21,
    gate_v4, gate_v15, gate_v37]
  unfold cellAt
  rfl

/-- The reference's new hidden state at `i`. -/
theorem hidden_apply (x0 : FVec Ideal S1024x1024 .f32) (x1 x2 x3 x4 x5 x6 : FVec Ideal S1024x2048 .f32)
    (x7 x8 x9 x10 : FVec Ideal S2048x2048 .f32) (x11 x12 x13 x14 : FVec Ideal S1x2048 .f32) (i : S1024x2048.Idx) :
    val_main_v43 (F := Ideal) x0 x1 x2 x3 x4 x5 x6 x7 x8 x9 x10 x11 x12 x13 x14 i
      = hiddenAt x0 x1 x2 x3 x4 x5 x6 x7 x8 x9 x10 x11 x12 x13 x14 (i 0) (i 1) := by
  rw [val_main_v43_apply, val_main_v42_apply, logistic_v32, gate_v26, cell_apply]
  unfold hiddenAt
  rfl

/-- As whole arrays. -/
theorem cell_eq (x0 : FVec Ideal S1024x1024 .f32) (x1 x2 x3 x4 x6 : FVec Ideal S1024x2048 .f32)
    (x7 x8 x10 : FVec Ideal S2048x2048 .f32) (x11 x12 x14 : FVec Ideal S1x2048 .f32) :
    val_main_v41 (F := Ideal) x0 x1 x2 x3 x4 x6 x7 x8 x10 x11 x12 x14
      = cellArr x0 x1 x2 x3 x4 x6 x7 x8 x10 x11 x12 x14 :=
  funext fun i => cell_apply x0 x1 x2 x3 x4 x6 x7 x8 x10 x11 x12 x14 i

theorem hidden_eq (x0 : FVec Ideal S1024x1024 .f32) (x1 x2 x3 x4 x5 x6 : FVec Ideal S1024x2048 .f32)
    (x7 x8 x9 x10 : FVec Ideal S2048x2048 .f32) (x11 x12 x13 x14 : FVec Ideal S1x2048 .f32) :
    val_main_v43 (F := Ideal) x0 x1 x2 x3 x4 x5 x6 x7 x8 x9 x10 x11 x12 x13 x14
      = hiddenArr x0 x1 x2 x3 x4 x5 x6 x7 x8 x9 x10 x11 x12 x13 x14 :=
  funext fun i => hidden_apply x0 x1 x2 x3 x4 x5 x6 x7 x8 x9 x10 x11 x12 x13 x14 i

end Cert.ReferenceIdeal.Cell

end
-- ==== Proof.lean ====
/-
  One step of an LSTM cell — a tiled kernel against its whole-array reference — over the extended reals.

  Both programs compute, for a batch of 1024 rows, 1024 input and 2048 hidden features, the four gate pre-activations
  `z = (x·w + h·u) + b`, the new cell state `σ(z_f)·c_old + σ(z_i)·tanh(z_c)` and the new hidden state
  `σ(z_o)·tanh(c_new)`, and return the hidden state first. The kernel visits the 1024 × 2048 result in 32 tiles of
  256 × 256, each from 256 rows of `x` and `h` and 256 columns of the weights and biases, contracting the whole shared axis
  in one product per operand; it rounds the operands of its products to a narrower float format, which is the identity on
  extended reals, and applies the logistic function as one operation where the reference spells `1 / (1 + e^(−z))` out, which
  is that function's definition. An entry of the result reads one row of `x`, `h`, one column of the weights and biases and
  one entry of `c_old`, so a tile of the kernel's result is that tile of the reference's, sum for sum in the same order: no
  law of arithmetic is used, and the precondition that the inputs are finite is not needed for the values.

  `Proof/LstmSpec.lean` states the cell entry by entry; `Proof/KernelCell.lean` and `Proof/KernelTiles.lean` read the kernel
  body's stored values and its tiles, `Proof/KernelWhole.lean` the kernel's two result arrays after its run (over the generated
  frame run with each output array named); `Proof/RefCell.lean` reads the reference's results (over its generated run, one
  operation at a time). The three frames are the generated ones; the kernel's idealization rewrote nothing.
-/
import proofs.«145109_j41420664603057_2_alg».proof.Defs
import proofs.«145109_j41420664603057_2_alg».proof.Proof.Gen.Kernel
import proofs.«145109_j41420664603057_2_alg».proof.Proof.Gen.Kernel.Frame
import proofs.«145109_j41420664603057_2_alg».proof.Proof.Gen.KernelIdeal
import proofs.«145109_j41420664603057_2_alg».proof.Proof.Gen.KernelIdeal.Frame
import proofs.«145109_j41420664603057_2_alg».proof.Proof.Gen.ReferenceIdeal
import proofs.«145109_j41420664603057_2_alg».proof.Proof.Gen.KernelIdeal.Value
import proofs.«145109_j41420664603057_2_alg».proof.Proof.Gen.ReferenceIdeal.Run
import proofs.«145109_j41420664603057_2_alg».proof.Proof.Gen.ReferenceIdeal.Read
import proofs.«145109_j41420664603057_2_alg».proof.Proof.Gen.Pre_finite_inputs
import proofs.«145109_j41420664603057_2_alg».proof.Proof.KernelWhole
import proofs.«145109_j41420664603057_2_alg».proof.Proof.RefCell
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on the fifteen arguments both programs end with the new hidden state and the new cell state
    of those arguments: the kernel's arrays tile by tile (`Whole.run`), the reference's operation by operation
    (`Cell.hidden_eq`, `Cell.cell_eq`). -/
theorem algebraic : Cert.algebraic_KernelIdeal_ReferenceIdeal := by
  intro m ρ m' ρ' _ hagree
  refine ⟨fun c => Cert.KernelIdeal.Whole.hiddenOf m c, fun c => Cert.KernelIdeal.Whole.cellOf m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14⟩ := hagree c
    rw [Cert.ReferenceIdeal.Read.val_main_v43_eq, Cert.ReferenceIdeal.Cell.hidden_eq,
      a0, a1, a2, a3, a4, a5, a6, a7, a8, a9, a10, a11, a12, a13, a14]
  · obtain ⟨a0, a1, a2, a3, a4, a5, a6, a7, a8, a9, a10, a11, a12, a13, a14⟩ := hagree c
    rw [Cert.ReferenceIdeal.Read.val_main_v41_eq, Cert.ReferenceIdeal.Cell.cell_eq,
      a0, a1, a2, a3, a4, a6, a7, a8, a10, a11, a12, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
